-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S25000 : Shape := ⟨1, ![25000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S50000x128 .f32) (main_arg1 : IVec S2x800000 32) (main_arg2 : IVec S25000 32) (main_arg3 : FVec F S128x128 .f32) (main_arg4 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S25000 : Shape := ⟨1, ![25000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S25000x1 : Shape := ⟨2, ![25000, 1]⟩
abbrev S25000x128 : Shape := ⟨2, ![25000, 128]⟩

abbrev nBuf : Space → Nat
  | .hbm => 46
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S25000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S1x128, .f32⟩
  | .hbm, ⟨7, _⟩ => ⟨S50000x128, .f32⟩
  | .hbm, ⟨8, _⟩ => ⟨S50000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S1x800000, .i32⟩
  | .hbm, ⟨13, _⟩ => ⟨S800000, .i32⟩
  | .hbm, ⟨14, _⟩ => ⟨S850000, .i32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S850000x128, .f32⟩
  | .hbm, ⟨24, _⟩ => ⟨S_, .f32⟩
  | .hbm, ⟨25, _⟩ => ⟨S50000x128, .f32⟩
  | .hbm, ⟨26, _⟩ => ⟨S850000x1, .i32⟩
  | .hbm, ⟨27, _⟩ => ⟨S50000x128, .f32⟩
  | .hbm, ⟨28, _⟩ => ⟨S_, .f32⟩
  | .hbm, ⟨29, _⟩ => ⟨S850000, .f32⟩
  | .hbm, ⟨30, _⟩ => ⟨S_, .f32⟩
  | .hbm, ⟨31, _⟩ => ⟨S50000, .f32⟩
  | .hbm, ⟨32, _⟩ => ⟨S850000x1, .i32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S25000, .i32⟩
  | .hbm, ⟨39, _⟩ => ⟨S25000, .i1⟩
  | .hbm, ⟨40, _⟩ => ⟨S_, .i32⟩
  | .hbm, ⟨41, _⟩ => ⟨S25000, .i32⟩
  | .hbm, ⟨42, _⟩ => ⟨S25000, .i32⟩
  | .hbm, ⟨43, _⟩ => ⟨S25000, .i32⟩
  | .hbm, ⟨44, _⟩ => ⟨S25000x1, .i32⟩
  | .hbm, ⟨45, _⟩ => ⟨S25000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_3 : Ref sig .tc := ⟨.hbm, 37, rfl⟩
abbrev main_v27 : Ref sig .tc := ⟨.hbm, 38, rfl⟩
abbrev main_v28 : Ref sig .tc := ⟨.hbm, 39, rfl⟩
abbrev main_c_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S25000 : S_.BroadcastsInDim S25000 (![] : Fin 0 → Fin S25000.rank)
  bcast_S25000_S25000x1_0 : S25000.BroadcastsInDim S25000x1 (![0] : Fin 1 → Fin S25000x1.rank)
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S850000x1_S850000_n_0_0_1_wf : ScatterDims.WF S50000 S850000x1 S850000 [] [0] [0] 1
  gather_S50000x128_S25000x1_S25000x128_1_0_n_n_0_1_1128_wf : GatherDims.WF S50000x128 S25000x1 S25000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S25000x1_S25000x128_1_0_n_n_0_1_1128 : GatherDims S50000x128 S25000x1 S25000x128 where
  offsetDims := [1]
  collapsedSliceDims := [0]
  operandBatchingDims := []
  startIndicesBatchingDims := []
  startIndexMap := [0]
  indexVectorDim := 1
  sliceSizes := ![1, 128]
  wf := gather_S50000x128_S25000x1_S25000x128_1_0_n_n_0_1_1128_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S25000 : Shape := ⟨1, ![25000]⟩
abbrev S128x128 : Shape := ⟨2, ![128, 128]⟩
abbrev S128 : Shape := ⟨1, ![128]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S25000x1 : Shape := ⟨2, ![25000, 1]⟩
abbrev S25000x128 : Shape := ⟨2, ![25000, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S25000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S50000x128, .f32⟩
  | .hbm, ⟨7, _⟩ => ⟨S1x128, .f32⟩
  | .hbm, ⟨8, _⟩ => ⟨S50000x128, .f32⟩
  | .hbm, ⟨9, _⟩ => ⟨S50000x128, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .i32⟩
  | .hbm, ⟨18, _⟩ => ⟨S850000, .i32⟩
  | .hbm, ⟨19, _⟩ => ⟨S850000, .i1⟩
  | .hbm, ⟨20, _⟩ => ⟨S_, .i32⟩
  | .hbm, ⟨21, _⟩ => ⟨S850000, .i32⟩
  | .hbm, ⟨22, _⟩ => ⟨S850000, .i32⟩
  | .hbm, ⟨23, _⟩ => ⟨S850000, .i32⟩
  | .hbm, ⟨24, _⟩ => ⟨S850000x1, .i32⟩
  | .hbm, ⟨25, _⟩ => ⟨S850000x128, .f32⟩
  | .hbm, ⟨26, _⟩ => ⟨S_, .f32⟩
  | .hbm, ⟨27, _⟩ => ⟨S50000x128, .f32⟩
  | .hbm, ⟨28, _⟩ => ⟨S850000x1, .i32⟩
  | .hbm, ⟨29, _⟩ => ⟨S50000x128, .f32⟩
  | .hbm, ⟨30, _⟩ => ⟨S_, .f32⟩
  | .hbm, ⟨31, _⟩ => ⟨S850000, .f32⟩
  | .hbm, ⟨32, _⟩ => ⟨S_, .f32⟩
  | .hbm, ⟨33, _⟩ => ⟨S50000, .f32⟩
  | .hbm, ⟨34, _⟩ => ⟨S850000x1, .i32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S25000, .i32⟩
  | .hbm, ⟨41, _⟩ => ⟨S25000, .i1⟩
  | .hbm, ⟨42, _⟩ => ⟨S_, .i32⟩
  | .hbm, ⟨43, _⟩ => ⟨S25000, .i32⟩
  | .hbm, ⟨44, _⟩ => ⟨S25000, .i32⟩
  | .hbm, ⟨45, _⟩ => ⟨S25000, .i32⟩
  | .hbm, ⟨46, _⟩ => ⟨S25000x1, .i32⟩
  | .hbm, ⟨47, _⟩ => ⟨S25000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_3 : Ref sig .tc := ⟨.hbm, 39, rfl⟩
abbrev main_v29 : Ref sig .tc := ⟨.hbm, 40, rfl⟩
abbrev main_v30 : Ref sig .tc := ⟨.hbm, 41, rfl⟩
abbrev main_c_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S25000 : S_.BroadcastsInDim S25000 (![] : Fin 0 → Fin S25000.rank)
  bcast_S25000_S25000x1_0 : S25000.BroadcastsInDim S25000x1 (![0] : Fin 1 → Fin S25000x1.rank)
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  scatter_S50000_S850000x1_S850000_n_0_0_1_wf : ScatterDims.WF S50000 S850000x1 S850000 [] [0] [0] 1
  gather_S50000x128_S25000x1_S25000x128_1_0_n_n_0_1_1128_wf : GatherDims.WF S50000x128 S25000x1 S25000x128 [1] [0] [] [0] [] 1 ![1, 128]

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000x128_S25000x1_S25000x128_1_0_n_n_0_1_1128 : GatherDims S50000x128 S25000x1 S25000x128 where
  offsetDims := [1]
  collapsedSliceDims := [0]
  operandBatchingDims := []
  startIndicesBatchingDims := []
  startIndexMap := [0]
  indexVectorDim := 1
  sliceSizes := ![1, 128]
  wf := gather_S50000x128_S25000x1_S25000x128_1_0_n_n_0_1_1128_wf

class Facts : Prop extends Facts₀ where

variable [Facts]
-- ==== Proof.LibPlainDot.lean ====
/-
  Two general facts about finite sums, used where one program contracts a long axis in one product and another
  contracts the same axis block by block.

  * A sum over `Fin (n + n + n)` (or `Fin (n + n)`) is the sum of the sums over its consecutive blocks of
    length `n`. This holds in every commutative additive monoid, so in particular on the extended reals, where
    no cancellation or distributivity is available at the infinities and none is needed here.
  * A matrix product with plain dimension numbers (rows by `K` times `K` by columns, nothing batched), accumulated
    into the zero matrix and read at exact arithmetic, is at the entry `(p, c)` the sum over the contracted
    coordinate `a` of the left factor at `(p, a)` times the right factor at `(a, c)`.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- A sum over three consecutive blocks of `n` indices is the sum of the three block sums. -/
theorem sum_three_blocks {M : Type*} [AddCommMonoid M] (n : Nat) (f : Fin (n + n + n) → M) :
    ∑ a, f a = (∑ a : Fin n, f ⟨a.val, by omega⟩ + ∑ a : Fin n, f ⟨n + a.val, by omega⟩)
      + ∑ a : Fin n, f ⟨n + n + a.val, by omega⟩ := by
  rw [Fin.sum_univ_add, Fin.sum_univ_add]
  rfl

/-- A sum over two consecutive blocks of `n` indices is the sum of the two block sums. -/
theorem sum_two_blocks {M : Type*} [AddCommMonoid M] (n : Nat) (f : Fin (n + n) → M) :
    ∑ a, f a = ∑ a : Fin n, f ⟨a.val, by omega⟩ + ∑ a : Fin n, f ⟨n + a.val, by omega⟩ := by
  rw [Fin.sum_univ_add]
  rfl

/-- The blocks of 64 inside 192 indices. -/
theorem sum_fin192 {M : Type*} [AddCommMonoid M] (f : Fin 192 → M) :
    ∑ a, f a = (∑ a : Fin 64, f ⟨a.val, by omega⟩ + ∑ a : Fin 64, f ⟨64 + a.val, by omega⟩)
      + ∑ a : Fin 64, f ⟨128 + a.val, by omega⟩ :=
  sum_three_blocks 64 f

/-- The blocks of 64 inside 128 indices. -/
theorem sum_fin128 {M : Type*} [AddCommMonoid M] (f : Fin 128 → M) :
    ∑ a, f a = ∑ a : Fin 64, f ⟨a.val, by omega⟩ + ∑ a : Fin 64, f ⟨64 + a.val, by omega⟩ :=
  sum_two_blocks 64 f

/-- A plain `R × K` by `K × C` product accumulated into the zero matrix, read at `(p, c)` in exact arithmetic:
    `∑ a, l (p, a) * r (a, c)`. The hypotheses `hl0 … hr1` say the dimension numbers are the plain ones: the left
    factor's index takes its row from the output index and its column from the contraction index, the right factor's
    its row from the contraction index and its column from the output index. -/
theorem matmul_zero_plain {R K C : Nat} {φ₁ φ₂ : FTy}
    (D : DotDims ⟨2, ![R, K]⟩ ⟨2, ![K, C]⟩ ⟨2, ![R, C]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (prec : Option ContractPrecision) (l : FVec Ideal ⟨2, ![R, K]⟩ φ₁) (r : FVec Ideal ⟨2, ![K, C]⟩ φ₂)
    (p : Fin R) (c : Fin C) :
    FloatOps.matmul D prec l r (constant ⟨2, ![R, C]⟩ .f32 0x00000000#32) (ix2 p c)
      = ∑ a : Fin K, l (ix2 p a) * r (ix2 a c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KernelBlock.lean ====
/-
  What the kernel body stores for one block of 5000 rows, entry by entry. The body multiplies the block of `x` by the
  already transposed weights on the matrix unit, into a zero accumulator, and adds the bias row broadcast over the
  block's rows. Read in exact arithmetic the two roundings to bf16 on the way into the product are the identity, the
  product into zero is the plain sum over the contracted coordinate, and the broadcast reads the bias row's one row:

      stored (p, q) = (∑ k, xblock (p, k) * wt (k, q)) + brow (0, q).
-/
import proofs.«102546_j4750233830165_1_alg».proof.Proof.Gen.KernelIdeal.Skeleton
import proofs.«102546_j4750233830165_1_alg».proof.Proof.LibPlainDot
import Idealize.ShloMosaic.Lib.ValueLayout
import Idealize.ShloMosaic.Lib.Pipeline.Value

noncomputable section

open scoped BigOperators

namespace Cert.KernelIdeal.Block

open Cert.KernelIdeal Cert.KernelIdeal.Gen Idealize.ShloMosaic Idealize.ShloMosaic.ValueIdx

/-- The matrix unit's dimension numbers are the plain ones: the left factor's row is the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

/-- … and the right factor's column is the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The stored value at `(p, q)`: the block's row `p` against column `q` of the transposed weights, plus the bias
    row at `q`. -/
theorem stored_apply (xblock : Vec Ideal S5000x128 .f32) (wt : Vec Ideal S128x128 .f32) (brow : Vec Ideal S1x128 .f32)
    (p : Fin 5000) (q : Fin 128) :
    k0_pay1 (F := Ideal) xblock wt brow (ix2 p q)
      = (∑ k : Fin 128, xblock (ix2 p k) * wt (ix2 k q)) + brow (ix2 (0 : Fin 1) q) := by
  unfold k0_pay1
  rw [addf_apply, shapeCast_self, shapeCast_self, broadcastTo_1b_ab_apply]
  refine congrArg (· + brow (ix2 (0 : Fin 1) q)) ?_
  exact Cert.LibPlainDot.matmul_zero_plain dot_S5000x128_S128x128_S5000x128_1_0_0_1_n_n rfl rfl lhs_row
    (fun i q => dot_S5000x128_S128x128_S5000x128_1_0_0_1_n_n.lhsIdx_val_of_single rfl i q)
    (fun i q => dot_S5000x128_S128x128_S5000x128_1_0_0_1_n_n.rhsIdx_val_of_single rfl i q) rhs_col none
    (truncf .bf16 xblock bitsLt_bf16_f32) (truncf .bf16 wt bitsLt_bf16_f32) p q

/-- The same at any index of the block, its coordinates named. -/
theorem stored_at (xblock : Vec Ideal S5000x128 .f32) (wt : Vec Ideal S128x128 .f32) (brow : Vec Ideal S1x128 .f32)
    (j : S5000x128.Idx) :
    k0_pay1 (F := Ideal) xblock wt brow j
      = (∑ k : Fin 128, xblock (ix2 (⟨(j 0).val, idx2_lt0 j⟩ : Fin 5000) k) * wt (ix2 k (⟨(j 1).val, idx2_lt1 j⟩ : Fin 128)))
        + brow (ix2 (0 : Fin 1) (⟨(j 1).val, idx2_lt1 j⟩ : Fin 128)) := by
  obtain ⟨p, q, rfl⟩ : ∃ (p : Fin 5000) (q : Fin 128), j = ix2 p q := ⟨j 0, j 1, eq_ix2 j⟩
  exact stored_apply xblock wt brow p q

end Cert.KernelIdeal.Block

end
-- ==== Proof.Linear.lean ====
/-
  The linear layer `y = x · Wᵀ + b` on the extended reals, written entry by entry: for a batch of 50000 rows of
  128 features, a 128 × 128 weight matrix `W` (one row per output feature) and a bias vector `b`,

      y (p, n) = (∑ k, x (p, k) * W (n, k)) + b n.

  Nothing here needs the entries to be finite: the two programs compared against this function form the same sum of
  the same products and add the same bias last, so no distributivity or cancellation is ever used.
-/
import Idealize.ShloMosaic.PureOps.Ideal
import Idealize.ShloMosaic.Lib.ValueIdx

noncomputable section

open scoped BigOperators

namespace Cert.Linear

open Idealize.ShloMosaic Idealize.ShloMosaic.ValueIdx

/-- Entry `(p, n)` of `x · Wᵀ + b`: row `p` of `x` against row `n` of `W`, plus `b n`. -/
def entry (x : FVec Ideal ⟨2, ![50000, 128]⟩ .f32) (W : FVec Ideal ⟨2, ![128, 128]⟩ .f32) (b : FVec Ideal ⟨1, ![128]⟩ .f32)
    (p : Fin 50000) (n : Fin 128) : EReal :=
  (∑ k : Fin 128, x (ix2 p k) * W (ix2 n k)) + b (ix1 n)

/-- The layer's whole output array. -/
def layer (x : FVec Ideal ⟨2, ![50000, 128]⟩ .f32) (W : FVec Ideal ⟨2, ![128, 128]⟩ .f32) (b : FVec Ideal ⟨1, ![128]⟩ .f32) :
    FVec Ideal ⟨2, ![50000, 128]⟩ .f32 :=
  fun i => entry x W b ⟨(i 0).val, idx2_lt0 i⟩ ⟨(i 1).val, idx2_lt1 i⟩

/-- The output array read at `(p, n)`. -/
theorem layer_ix2 (x : FVec Ideal ⟨2, ![50000, 128]⟩ .f32) (W : FVec Ideal ⟨2, ![128, 128]⟩ .f32) (b : FVec Ideal ⟨1, ![128]⟩ .f32)
    (p : Fin 50000) (n : Fin 128) : layer x W b (ix2 p n) = entry x W b p n := rfl

end Cert.Linear

end
-- ==== Proof.KernelArray.lean ====
/-
  The array the kernel leaves behind: `Cert.Linear.layer` of the inputs.

  The grid has ten points; point `t` works on rows `5000 t … 5000 t + 4999`. Its first operand's block is those rows of
  `x`; its second and third operands are the whole transposed weight matrix and the whole bias row, which the host
  program wrote before the region (a transpose of `W`, a reshape of `b` to one row); its result block is written back
  to the same rows of the output. So what point `t` writes back is the block of `layer x W b` at those rows, and since
  every row lies in exactly one such block, the output array ends as `layer x W b`.
-/
import proofs.«102546_j4750233830165_1_alg».proof.Proof.Gen.KernelIdeal.Frame
import proofs.«102546_j4750233830165_1_alg».proof.Proof.KernelBlock
import proofs.«102546_j4750233830165_1_alg».proof.Proof.Linear
import Idealize.ShloMosaic.Lib.Pipeline.Value
import Idealize.ShloMosaic.Lib.ValueLayout
import Idealize.ShloMosaic.Lib.StableHlo.Run

noncomputable section

open scoped BigOperators

namespace Cert.KernelIdeal.Arr

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-! ## What the host wrote before the region -/

/-- The second operand's array is `W` transposed. -/
theorem weights_transposed (c : Dev nD) :
    (V m c main_v0 : S128x128.Idx → EReal)
      = transpose S128x128 [1, 0] (m ((c : Thread nD τ).loc main_arg3)) transposes_S128x128_S128x128_1_0 := by
  show StableHlo.after hostOps0 (fun b => m (c, b)) (Proc.devRef .tc main_v0) = _
  after_results <;> rfl

/-- The third operand's array is `b` as one row. -/
theorem bias_row (c : Dev nD) :
    (V m c main_v1 : S1x128.Idx → EReal)
      = shapeCast S1x128 (m ((c : Thread nD τ).loc main_arg4)) shapeCasts_S128_S1x128 := by
  show StableHlo.after hostOps0 (fun b => m (c, b)) (Proc.devRef .tc main_v1) = _
  after_results <;> rfl

/-! ## Which block each operand has at a point -/

/-- The rows move with the point; the weights and the bias row stay put. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block of rows is some point's. -/
theorem block_onto : ∀ q : Fin 10, ∃ t : Fin cfg0.N, win0_3.index t = ![q.val, 0] :=
  (by decide +kernel : ∀ q : Fin 10, ∃ t : Fin grid0.N, win0_3.index t = ![q.val, 0])

/-- The first operand's block at point `t`, at `(p, k)`, is `x` at row `5000 t + p`. -/
theorem rows_block (c : Dev nD) (t : Fin cfg0.N) (p : Fin 5000) (k : Fin 128) (r : Fin 50000)
    (hr : r.val = t.val * 5000 + p.val) :
    (iblk m c 0 t : Vec Ideal S5000x128 .f32) (ix2 p k)
      = (m ((c : Thread nD τ).loc main_arg0) : S50000x128.Idx → EReal) (ix2 r k) := by
  obtain ⟨e0, e1, -⟩ := block_indices t
  unfold iblk
  rw [View.read_apply]
  show V m c main_arg0 _ = _
  rw [V_main_arg0]
  refine congrArg _ (funext fun a => Fin.ext ?_)
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The second operand's block, at `(k, q)`, is `W` at `(q, k)`. -/
theorem weights_block (c : Dev nD) (t : Fin cfg0.N) (k : Fin 128) (q : Fin 128) :
    (iblk m c 1 t : Vec Ideal S128x128 .f32) (ix2 k q)
      = (m ((c : Thread nD τ).loc main_arg3) : S128x128.Idx → EReal) (ix2 q k) := by
  obtain ⟨-, -, e2, e3, -⟩ := block_indices t
  unfold iblk
  rw [View.read_apply]
  show V m c main_v0 _ = _
  rw [weights_transposed]
  have hemb : ((cfg0.win 1).blk t).view.emb (ix2 k q) = (ix2 k q : S128x128.Idx) := funext fun a => Fin.ext (by
    match a with
    | ⟨0, _⟩ => show win0_1.index t (0 : Fin 2) * 128 + 1 * k.val = k.val; rw [e2]; omega
    | ⟨1, _⟩ => show win0_1.index t (1 : Fin 2) * 128 + 1 * q.val = q.val; rw [e3]; omega)
  rw [hemb]
  exact transpose_ix2_apply _ _ k q

/-- The third operand's block, at `(0, q)`, is `b` at `q`. -/
theorem bias_block (c : Dev nD) (t : Fin cfg0.N) (q : Fin 128) :
    (iblk m c 2 t : Vec Ideal S1x128 .f32) (ix2 (0 : Fin 1) q)
      = (m ((c : Thread nD τ).loc main_arg4) : S128.Idx → EReal) (ix1 q) := by
  obtain ⟨-, -, -, -, e4, e5, -⟩ := block_indices t
  unfold iblk
  rw [View.read_apply]
  show V m c main_v1 _ = _
  rw [bias_row]
  have hemb : ((cfg0.win 2).blk t).view.emb (ix2 (0 : Fin 1) q) = (ix2 (0 : Fin 1) q : S1x128.Idx) := funext fun a => Fin.ext (by
    match a with
    | ⟨0, _⟩ => show win0_2.index t (0 : Fin 2) * 1 + 1 * 0 = 0; rw [e4]
    | ⟨1, _⟩ => show win0_2.index t (1 : Fin 2) * 128 + 1 * q.val = q.val; rw [e5]; omega)
  rw [hemb]
  exact shapeCast_a_1a_apply _ _ (0 : Fin 1) q

/-! ## What a point writes back, and the array after the last point -/

/-- Point `t` writes back the block of `layer x W b` at its rows. -/
theorem written_back (c : Dev nD) (t : Fin cfg0.N) :
    (dats m 0 c).flushed 3 t = ((cfg0.win 3).blk t).view.read (Elt Ideal)
      (Cert.Linear.layer (m ((c : Thread nD τ).loc main_arg0)) (m ((c : Thread nD τ).loc main_arg3)) (m ((c : Thread nD τ).loc main_arg4))) := by
  show (cfg0.win 3).cut (grid0.coords t) ((dats m 0 c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, e6, e7⟩ := block_indices t
  have hN : cfg0.N = 10 := N_0
  have ht : t.val < 10 := hN ▸ t.isLt
  funext j
  have hj0 : (j 0).val < 5000 := (j 0).isLt
  have hj1 : (j 1).val < 128 := (j 1).isLt
  show k0_pay1 (iblk m c 0 t) (iblk m c 1 t) (iblk m c 2 t) j = Cert.Linear.layer _ _ _ (((cfg0.win 3).blk t).view.emb j)
  refine (Block.stored_at (iblk m c 0 t) (iblk m c 1 t) (iblk m c 2 t) j).trans ?_
  have hemb : ((cfg0.win 3).blk t).view.emb j
      = (ix2 (⟨t.val * 5000 + (j 0).val, by omega⟩ : Fin 50000) (⟨(j 1).val, hj1⟩ : Fin 128) : S50000x128.Idx) :=
    funext fun a => Fin.ext (by
      match a with
      | ⟨0, _⟩ => show win0_3.index t (0 : Fin 2) * 5000 + 1 * (j 0).val = t.val * 5000 + (j 0).val; rw [e6]; omega
      | ⟨1, _⟩ => show win0_3.index t (1 : Fin 2) * 128 + 1 * (j 1).val = (j 1).val; rw [e7]; omega)
  rw [hemb, Cert.Linear.layer_ix2]
  unfold Cert.Linear.entry
  rw [bias_block m c t]
  refine congrArg (· + _) (Finset.sum_congr rfl fun k _ => ?_)
  rw [rows_block m c t ⟨(j 0).val, hj0⟩ k ⟨t.val * 5000 + (j 0).val, by omega⟩ rfl, weights_block m c t k ⟨(j 1).val, hj1⟩]

/-- An index of the output array is in point `t`'s block iff each coordinate is in the block's range. -/
theorem in_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v2).slice (win0_3.rect t)).set ↔ _
  rw [View.set_slice_whole, Rect.mem_set_unit]
  exact Iff.rfl

/-- Every index of the output array is in the block of the point its row belongs to. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := block_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [in_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the run is `layer x W b`. -/
theorem output_array (c : Dev nD) :
    (dats m 0 c).arrAt 3 cfg0.N
      = Cert.Linear.layer (m ((c : Thread nD τ).loc main_arg0)) (m ((c : Thread nD τ).loc main_arg3)) (m ((c : Thread nD τ).loc main_arg4)) :=
  (dats m 0 c).arrAt_eq_of_cover 3 _ (fun t _ => written_back m c t) covered

end Cert.KernelIdeal.Arr

end
-- ==== Proof.Tail.lean ====
/-
  The graph aggregation both programs apply to the linear layer's output `tx` (50000 nodes, 128 features), as ONE
  function of `tx`, the edge list and the list of nodes to keep:

    * the edge list's two rows, each followed by one self-loop per node (the nodes `0 … 49999` in order), give
      850000 source nodes and 850000 target nodes;
    * a source index below zero has 50000 added (an index counted from the end);
    * `sums` adds, into a zero array, row `source e` of `tx` onto row `target e`, for every edge `e`;
      `counts` adds `1` onto entry `target e`; `means` divides each row of `sums` by its count;
    * the result is the rows of `means` at the kept nodes (again with 50000 added to an index below zero).

  The two programs differ only in how they compute `tx`; this function is never opened.
-/
import proofs.«102546_j4750233830165_1_alg».proof.Proof.Gen.KernelIdeal

noncomputable section

namespace Cert.KernelIdeal.Tail

open Cert.KernelIdeal Cert.KernelIdeal.Gen Idealize.ShloMosaic

variable {F : FTy → Type} [FloatOps F]

/-- The edges' source nodes, then every node once (its self-loop). -/
def sources (edges : (⟨S2x800000, .i32⟩ : BufTy).Contents (Elt F)) : (⟨S850000, .i32⟩ : BufTy).Contents (Elt F) :=
  concatenate S850000 0 [⟨S800000, (shapeCast _ (extractStridedSlice S1x800000 ![0, 0] edges slices_S2x800000_S1x800000_0_0) shapeCasts_S1x800000_S800000)⟩, ⟨S50000, (iotaInDim S50000 32 0)⟩] concatenates_S800000_S50000_S850000_d0

/-- The edges' target nodes, then every node once. -/
def targets (edges : (⟨S2x800000, .i32⟩ : BufTy).Contents (Elt F)) : (⟨S850000, .i32⟩ : BufTy).Contents (Elt F) :=
  concatenate S850000 0 [⟨S800000, (shapeCast _ (extractStridedSlice S1x800000 ![1, 0] edges slices_S2x800000_S1x800000_1_0) shapeCasts_S1x800000_S800000)⟩, ⟨S50000, (iotaInDim S50000 32 0)⟩] concatenates_S800000_S50000_S850000_d0

/-- An edge endpoint below zero counts from the end: 50000 is added. -/
def wrapEdge (v : (⟨S850000, .i32⟩ : BufTy).Contents (Elt F)) : (⟨S850000, .i32⟩ : BufTy).Contents (Elt F) :=
  select (cmpi .slt v (broadcastInDim S850000 ![] bcast_S_S850000 (constantI S_ 32 0#32))) (addi v (broadcastInDim S850000 ![] bcast_S_S850000 (constantI S_ 32 50000#32))) v

/-- The same for a kept node's index. -/
def wrapKeep (v : (⟨S25000, .i32⟩ : BufTy).Contents (Elt F)) : (⟨S25000, .i32⟩ : BufTy).Contents (Elt F) :=
  select (cmpi .slt v (broadcastInDim S25000 ![] bcast_S_S25000 (constantI S_ 32 0#32))) (addi v (broadcastInDim S25000 ![] bcast_S_S25000 (constantI S_ 32 50000#32))) v

/-- Per target node, the sum of its incoming edges' source rows of `tx`. -/
def sums (tx : (⟨S50000x128, .f32⟩ : BufTy).Contents (Elt F)) (edges : (⟨S2x800000, .i32⟩ : BufTy).Contents (Elt F)) :
    (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (targets (F := F) edges)) (Host.gather gather_S50000x128_S850000x1_S850000x128_1_0_n_n_0_1_1128 tx (broadcastInDim S850000x1 ![0] bcast_S850000_S850000x1_0 (wrapEdge (F := F) (sources (F := F) edges))))

/-- Per target node, the number of its incoming edges (self-loop included). -/
def counts (edges : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (targets (F := F) edges)) (broadcastInDim S850000 ![] bcast_S_S850000 (constant S_ .f32 0x3F800000#32))

/-- The mean over incoming edges, then the kept nodes' rows. -/
def aggregate (tx : (⟨S50000x128, .f32⟩ : BufTy).Contents (Elt F)) (edges : (⟨S2x800000, .i32⟩ : BufTy).Contents (Elt F))
    (keep : (⟨S25000, .i32⟩ : BufTy).Contents (Elt F)) : (⟨S25000x128, .f32⟩ : BufTy).Contents (Elt F) :=
  Host.gather gather_S50000x128_S25000x1_S25000x128_1_0_n_n_0_1_1128 (Host.divf (sums (F := F) tx edges) (broadcastInDim S50000x128 ![0, 1] bcast_S50000x1_S50000x128_0_1 (broadcastInDim S50000x1 ![0] bcast_S50000_S50000x1_0 (counts (F := F) edges)))) (broadcastInDim S25000x1 ![0] bcast_S25000_S25000x1_0 (wrapKeep (F := F) keep))

end Cert.KernelIdeal.Tail

end
-- ==== Proof.KernelTail.lean ====
/-
  The kernel program's result is the shared aggregation applied to the array its region leaves: the host operations
  after the region are, line for line, `Cert.KernelIdeal.Tail.aggregate` of the region's output array, the edge list
  and the kept nodes, none of which any later operation overwrites.
-/
import proofs.«102546_j4750233830165_1_alg».proof.Proof.Gen.KernelIdeal.Frame
import proofs.«102546_j4750233830165_1_alg».proof.Proof.Tail
import Idealize.ShloMosaic.Lib.StableHlo.Run
import Idealize.ShloMosaic.PureOps.Ideal

noncomputable section

namespace Cert.KernelIdeal.KTail

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- From any buffer contents, the operations after the region leave in the result buffer the aggregation of what the
    region's output buffer, the edge list and the kept nodes hold. -/
theorem after_tail (Wv : Valuation τ sig (Elt Ideal)) :
    StableHlo.after (hostOps1 (F := Ideal)) Wv (Proc.devRef .tc main_v33)
      = Tail.aggregate (F := Ideal) (Wv (Proc.devRef .tc main_v2)) (Wv (Proc.devRef .tc main_arg1)) (Wv (Proc.devRef .tc main_arg2)) := by
  after_results_simp <;> rfl

/-- The kernel program's result: the aggregation of the region's output array. -/
theorem result_eq (c : Dev nD) :
    Pipeline.afterTail₀ cfgs (dats m) 0 (V0 m) [hostOps1] c main_v33
      = Tail.aggregate (F := Ideal) ((dats m 0 c).arrAt 3 cfg0.N) (m ((c : Thread nD τ).loc main_arg1)) (m ((c : Thread nD τ).loc main_arg2)) := by
  unfold Pipeline.afterTail₀
  show StableHlo.after hostOps1 (Pipeline.withArrays spec0 c (V0 m c) fun w => (dats m 0 c).arrAt w cfg0.N) (Proc.devRef .tc main_v33) = _
  have h3 : Pipeline.withArrays spec0 c (V0 m c) (fun w => (dats m 0 c).arrAt w cfg0.N) (Proc.devRef .tc main_v2)
      = (dats m 0 c).arrAt 3 cfg0.N := Pipeline.withArrays_arr spec0 launch0.win.arr_inj c _ _ 3
  have h1 : Pipeline.withArrays spec0 c (V0 m c) (fun w => (dats m 0 c).arrAt w cfg0.N) (Proc.devRef .tc main_arg1)
      = m ((c : Thread nD τ).loc main_arg1) :=
    (Pipeline.withArrays_of_ne _ c (V0 m c) _ main_arg1 (by decide : ∀ w, Pipeline.arrRef spec0 w ≠ main_arg1)).trans (V_main_arg1 m c)
  have h2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by decide : ∀ w, Pipeline.arrRef spec0 w ≠ main_arg2)).trans (V_main_arg2 m c)
  rw [after_tail, h3, h1, h2]

end Cert.KernelIdeal.KTail

end
-- ==== Proof.RefLinear.lean ====
/-
  The reference's linear layer, `x @ W.T + b`, is the function `Cert.Linear.layer`. The reference transposes `W`,
  contracts `x`'s columns with the transposed matrix's rows, stretches `b` to a row and then over all rows, and adds.
  Read at `(p, n)`: the contraction is the sum over `k` of `x (p, k)` times the transposed matrix at `(k, n)`,
  which is `W (n, k)`; the stretched bias is `b n`.
-/
import proofs.«102546_j4750233830165_1_alg».proof.Proof.Gen.ReferenceIdeal.Read
import proofs.«102546_j4750233830165_1_alg».proof.Proof.Linear

noncomputable section

open scoped BigOperators

namespace Cert.ReferenceIdeal.RefLinear

open Cert.ReferenceIdeal Cert.ReferenceIdeal.Read Idealize.ShloMosaic Idealize.ShloMosaic.ValueIdx

/-- The left factor is read at row `p`, column `k`. -/
theorem left_index (p : Fin 50000) (n : Fin 128) (k : Fin 128) : lidx_main_v1 (ix2 p n) k = ix2 p k :=
  funext fun a => Fin.ext (by match a with | ⟨0, _⟩ => rfl | ⟨1, _⟩ => rfl)

/-- The transposed weights at row `k`, column `n` are the weights at row `n`, column `k`. -/
theorem right_index (p : Fin 50000) (n : Fin 128) (k : Fin 128) : idx_main_v0 (ridx_main_v1 (ix2 p n) k) = ix2 n k :=
  funext fun a => Fin.ext (by match a with | ⟨0, _⟩ => rfl | ⟨1, _⟩ => rfl)

/-- The bias stretched over the rows is read at its column. -/
theorem bias_index (p : Fin 50000) (n : Fin 128) : idx_main_v2 (idx_main_v3 (ix2 p n)) = ix1 n :=
  funext fun a => Fin.ext (by match a with | ⟨0, _⟩ => rfl)

/-- The reference's linear layer is `layer`. -/
theorem linear_eq (x : FVec Ideal S50000x128 .f32) (W : FVec Ideal S128x128 .f32) (b : FVec Ideal S128 .f32) :
    val_main_v4 (F := Ideal) x W b = Cert.Linear.layer x W b := by
  funext i
  obtain ⟨p, n, rfl⟩ : ∃ (p : Fin 50000) (n : Fin 128), i = ix2 p n := ⟨i 0, i 1, eq_ix2 i⟩
  rw [val_main_v4_apply, val_main_v1_apply, val_main_v3_apply, val_main_v2_apply, Cert.Linear.layer_ix2]
  unfold Cert.Linear.entry
  simp only [val_main_v0_apply, left_index, right_index, bias_index]
  rfl

end Cert.ReferenceIdeal.RefLinear

end
-- ==== Proof.RefTail.lean ====
/-
  The reference's result is the shared aggregation applied to its own linear layer: every operation after the
  layer's addition is, line for line, an operation of `Cert.KernelIdeal.Tail.aggregate`.
-/
import proofs.«102546_j4750233830165_1_alg».proof.Proof.Gen.ReferenceIdeal.Read
import proofs.«102546_j4750233830165_1_alg».proof.Proof.Tail

noncomputable section

namespace Cert.ReferenceIdeal.RefTail

open Cert.ReferenceIdeal Cert.ReferenceIdeal.Read Idealize.ShloMosaic

/-- The reference's result, as the aggregation of its linear layer. -/
theorem result_eq (x : (⟨S50000x128, .f32⟩ : BufTy).Contents (Elt Ideal)) (edges : (⟨S2x800000, .i32⟩ : BufTy).Contents (Elt Ideal))
    (keep : (⟨S25000, .i32⟩ : BufTy).Contents (Elt Ideal)) (W : (⟨S128x128, .f32⟩ : BufTy).Contents (Elt Ideal))
    (b : (⟨S128, .f32⟩ : BufTy).Contents (Elt Ideal)) :
    val_main_v35 (F := Ideal) x edges keep W b
      = Cert.KernelIdeal.Tail.aggregate (F := Ideal) (val_main_v4 (F := Ideal) x W b) edges keep := rfl

end Cert.ReferenceIdeal.RefTail

end
-- ==== Proof.lean ====
/-
  The kernel program and its reference compute the same thing on the extended reals.

  Both apply one linear layer, `tx = x · Wᵀ + b`, to 50000 node feature rows and then the same graph aggregation
  (mean of `tx` over each node's incoming edges with self-loops, then a selection of rows). The kernel program
  computes the layer on the accelerator, 5000 rows per grid point, with the weights transposed beforehand and both
  factors rounded to bf16 on the way into the matrix unit; in exact arithmetic those roundings are the identity and
  each entry is `(∑ k, x (p, k) * W (n, k)) + b n` (`Cert.Linear.layer`), which is also what the reference's
  `x @ W.T + b` is entry by entry. The aggregation is carried as one function (`Cert.KernelIdeal.Tail.aggregate`)
  applied to equal arguments and is never opened. No step uses that the inputs are finite: the two sides form the
  same sums of the same products in the same order.

  The idealization rewrote nothing, so the kernel's idealized program is its own text read in exact arithmetic.
-/
import proofs.«102546_j4750233830165_1_alg».proof.Defs
import proofs.«102546_j4750233830165_1_alg».proof.Proof.Gen.Kernel
import proofs.«102546_j4750233830165_1_alg».proof.Proof.Gen.Kernel.Frame
import proofs.«102546_j4750233830165_1_alg».proof.Proof.Gen.KernelIdeal
import proofs.«102546_j4750233830165_1_alg».proof.Proof.Gen.KernelIdeal.Frame
import proofs.«102546_j4750233830165_1_alg».proof.Proof.Gen.ReferenceIdeal
import proofs.«102546_j4750233830165_1_alg».proof.Proof.Gen.ReferenceIdeal.Run
import proofs.«102546_j4750233830165_1_alg».proof.Proof.Gen.ReferenceIdeal.Read
import proofs.«102546_j4750233830165_1_alg».proof.Proof.Gen.Pre_finite_inputs
import proofs.«102546_j4750233830165_1_alg».proof.Proof.KernelArray
import proofs.«102546_j4750233830165_1_alg».proof.Proof.KernelTail
import proofs.«102546_j4750233830165_1_alg».proof.Proof.RefLinear
import proofs.«102546_j4750233830165_1_alg».proof.Proof.RefTail
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does the same text read in exact arithmetic. -/
theorem frame_kernel_ideal : Cert.frame_KernelIdeal := fun m ρ _ => Cert.KernelIdeal.Gen.frame m ρ

/-- The reference runs and leaves its arguments unchanged: its run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten by the idealization. -/
theorem preserves : Cert.preserves_Kernel_KernelIdeal := trivial

/-- Both programs end with the aggregation of `layer x W b`, and with the kept nodes' list as given. -/
theorem algebraic : Cert.algebraic_KernelIdeal_ReferenceIdeal := by
  intro m ρ m' ρ' _ hagree
  refine ⟨fun c => Cert.KernelIdeal.Tail.aggregate (F := Ideal)
      (Cert.Linear.layer (m ((c.tc : Thread Cert.KernelIdeal.nD Cert.KernelIdeal.τ).loc Cert.KernelIdeal.main_arg0))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => m ((c.tc : Thread Cert.KernelIdeal.nD Cert.KernelIdeal.τ).loc Cert.KernelIdeal.main_arg2), ?_, ?_⟩
  · -- the kernel program: the region's output array is `layer x W b`, the later operations aggregate it
    refine (θ_run Cert.KernelIdeal.defs _ _).mono (fun _ h c => ?_) (Cert.KernelIdeal.Gen.run_main m ρ)
    exact ⟨((h c).2 Cert.KernelIdeal.main_v33 (Pipeline.mem_restRefs_of Cert.KernelIdeal.main_v33 (by decide) (by decide))).trans
        ((Cert.KernelIdeal.KTail.result_eq m c).trans
          (congrArg (fun a => Cert.KernelIdeal.Tail.aggregate (F := Ideal) a _ _) (Cert.KernelIdeal.Arr.output_array m c))),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).1 0).trans (((Cert.KernelIdeal.Gen.dats m 0 c).arrAt_in 0 rfl _).trans
        ((Cert.KernelIdeal.Gen.A_eq m c 0).trans (Cert.KernelIdeal.Gen.V_main_arg0 m c))),
      ((h c).2 Cert.KernelIdeal.main_arg1 (Pipeline.mem_restRefs_of Cert.KernelIdeal.main_arg1 (by decide) (by decide))).trans
        (Cert.KernelIdeal.Gen.W_main_arg1 m (Cert.KernelIdeal.Gen.dats m) c),
      ((h c).2 Cert.KernelIdeal.main_arg2 (Pipeline.mem_restRefs_of Cert.KernelIdeal.main_arg2 (by decide) (by decide))).trans
        (Cert.KernelIdeal.Gen.W_main_arg2 m (Cert.KernelIdeal.Gen.dats m) c),
      ((h c).2 Cert.KernelIdeal.main_arg3 (Pipeline.mem_restRefs_of Cert.KernelIdeal.main_arg3 (by decide) (by decide))).trans
        (Cert.KernelIdeal.Gen.W_main_arg3 m (Cert.KernelIdeal.Gen.dats m) c),
      ((h c).2 Cert.KernelIdeal.main_arg4 (Pipeline.mem_restRefs_of Cert.KernelIdeal.main_arg4 (by decide) (by decide))).trans
        (Cert.KernelIdeal.Gen.W_main_arg4 m (Cert.KernelIdeal.Gen.dats m) c)⟩
  · -- the reference: its linear layer is `layer x W b`, its later operations the same aggregation
    refine (θ_run Cert.ReferenceIdeal.defs _ _).mono (fun _ h c => ?_) (Cert.ReferenceIdeal.Value.run (F := Ideal) m' ρ')
    obtain ⟨g0, g1, g2, g3, g4⟩ := hagree c
    refine ⟨(h c).1.trans ?_, (h c).2.1.trans g2, (h c).2.2⟩
    rw [g0, g1, g2, g3, g4]
    exact (Cert.ReferenceIdeal.Read.val_main_v35_eq _ _ _ _ _).trans
      ((Cert.ReferenceIdeal.RefTail.result_eq _ _ _ _ _).trans
        (congrArg (fun a => Cert.KernelIdeal.Tail.aggregate (F := Ideal) a _ _) (Cert.ReferenceIdeal.RefLinear.linear_eq _ _ _)))

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
